-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S21x21 : Shape := ⟨2, ![21, 21]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S21x21 : S_.BroadcastsInDim S21x21 (![] : Fin 0 → Fin S21x21.rank)
  reducesTo_S21x21_S_d0_1 : S21x21.ReducesTo [0, 1] S_

variable [Facts]

def fn {F : FTy → Type} [FloatOps F] (main_arg0 : FVec F S8x21x512x512 .f32) (main_arg1 : FVec F S8x21x512x512 .f32) (main_arg2 : FVec F S21x21 .f32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_v4 : FVec F S8x21x512x512 .f32 := Host.absf main_arg1
  let main_cst_0 : FVec F S_ .f32 := constant S_ .f32 0x7F800000#32
  let main_v5 : FVec F S8x21x512x512 .f32 := broadcastInDim S8x21x512x512 ![] bcast_S_S8x21x512x512 main_cst_0
  let main_v6 : IVec S8x21x512x512 1 := cmpf .olt main_v4 main_v5
  let main_c_1 : IVec S_ 1 := constantI S_ 1 1#1
  let main_v7 : IVec S_ 1 := (fun x v => Host.reduce IntOp.andi x v reducesTo_S8x21x512x512_S_d0_1_2_3 h_S_) main_v6 main_c_1
  let main_v8 : IVec S_ 1 := andi main_v3 main_v7
  let main_v9 : FVec F S21x21 .f32 := Host.absf main_arg2
  let main_cst_2 : FVec F S_ .f32 := constant S_ .f32 0x7F800000#32
  let main_v10 : FVec F S21x21 .f32 := broadcastInDim S21x21 ![] bcast_S_S21x21 main_cst_2
  let main_v11 : IVec S21x21 1 := cmpf .olt main_v9 main_v10
  let main_c_3 : IVec S_ 1 := constantI S_ 1 1#1
  let main_v12 : IVec S_ 1 := (fun x v => Host.reduce IntOp.andi x v reducesTo_S21x21_S_d0_1 h_S_) main_v11 main_c_3
  let main_v13 : IVec S_ 1 := andi main_v8 main_v12
  main_v13
-- ==== Kernel.lean ====
abbrev S8x21x512x512 : Shape := ⟨4, ![8, 21, 512, 512]⟩
abbrev S21x21 : Shape := ⟨2, ![21, 21]⟩
abbrev S8x21x262144 : Shape := ⟨3, ![8, 21, 262144]⟩
abbrev S2097152x21 : Shape := ⟨2, ![2097152, 21]⟩
abbrev S1x21x8192 : Shape := ⟨3, ![1, 21, 8192]⟩
abbrev S8192x21 : Shape := ⟨2, ![8192, 21]⟩
abbrev S21x8192 : Shape := ⟨2, ![21, 8192]⟩
abbrev S8192 : Shape := ⟨1, ![8192]⟩
abbrev S1x8192 : Shape := ⟨2, ![1, 8192]⟩

abbrev nBuf : Space → Nat
  | .hbm => 6
  | .vmem => 7
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S21x21, .f32⟩
  | .hbm, ⟨3, _⟩ => ⟨S8x21x262144, .f32⟩
  | .hbm, ⟨4, _⟩ => ⟨S8x21x262144, .f32⟩
  | .hbm, ⟨5, _⟩ => ⟨S2097152x21, .f32⟩
  | .local _ .vmem, ⟨0, _⟩ => ⟨S1x21x8192, .f32⟩
  | .local _ .vmem, ⟨1, _⟩ => ⟨S1x21x8192, .f32⟩
  | .local _ .vmem, ⟨2, _⟩ => ⟨S1x21x8192, .f32⟩
  | .local _ .vmem, ⟨3, _⟩ => ⟨S1x21x8192, .f32⟩
  | .local _ .vmem, ⟨4, _⟩ => ⟨S21x21, .f32⟩
  | .local _ .vmem, ⟨5, _⟩ => ⟨S8192x21, .f32⟩
  | .local _ .vmem, ⟨6, _⟩ => ⟨S8192x21, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x21x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x21x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S21x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x21x512x512_S8x21x262144 : S8x21x512x512.ShapeCasts S8x21x262144
  inb_S1x21x8192_S1x21x8192_0_0_0 : ∀ a, (![0, 0, 0] : Fin 3 → Nat) a + S1x21x8192.size a ≤ S1x21x8192.size a
  h_S1x21x8192 : 0 < S1x21x8192.numel
  shapeCasts_S1x21x8192_S21x8192 : S1x21x8192.ShapeCasts S21x8192
  inb_S21x21_S21x21_0_0 : ∀ a, (![0, 0] : Fin 2 → Nat) a + S21x21.size a ≤ S21x21.size a
  h_S21x21 : 0 < S21x21.numel
  reduces_S21x8192_S8192 : S21x8192.Reduces [0] S8192
  shapeCasts_S8192_S1x8192 : S8192.ShapeCasts S1x8192
  broadcasts_S1x8192_S21x8192 : S1x8192.Broadcasts S21x8192
  bitsLt_bf16_f32 : FTy.bits .bf16 < FTy.bits .f32
  transposes_S21x8192_p1_0_S8192x21 : S21x8192.Transposes [1, 0] S8192x21
  inb_S8192x21_S8192x21_0_0 : ∀ a, (![0, 0] : Fin 2 → Nat) a + S8192x21.size a ≤ S8192x21.size a
  h_S8192x21 : 0 < S8192x21.numel
  dot_S21x21_S21x8192_S21x8192_1_0_0_1_n_n_wf : DotDims.WF S21x21 S21x8192 S21x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x8192.size a ≤ S8x21x262144.size a
  hwx0_0 : ∀ i : grid0.Coords, EltTy.bits .f32 = 32 ∨ (Rect.block (s := S8x21x262144) S1x21x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x21x8192.size a ≤ S8x21x262144.size a
  hwx0_1 : ∀ i : grid0.Coords, EltTy.bits .f32 = 32 ∨ (Rect.block (s := S8x21x262144) S1x21x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x21.size a ≤ S21x21.size a
  hwx0_2 : ∀ i : grid0.Coords, EltTy.bits .f32 = 32 ∨ (Rect.block (s := S21x21) S21x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x21.size a ≤ S2097152x21.size a
  hwx0_3 : ∀ i : grid0.Coords, EltTy.bits .f32 = 32 ∨ (Rect.block (s := S2097152x21) S8192x21.size (cc0_transform_3 i) (hinb0_3 i)).WholeWords (EltTy.packing .f32)

variable [Facts₀]

def dot_S21x21_S21x8192_S21x8192_1_0_0_1_n_n : DotDims S21x21 S21x8192 S21x8192 where
  lhsContracting := [1]
  rhsContracting := [0]
  lhsNonContracting := [0]
  rhsNonContracting := [1]
  lhsBatch := []
  rhsBatch := []
  wf := dot_S21x21_S21x8192_S21x8192_1_0_0_1_n_n_wf

abbrev win0_0 : Pipeline.Window sig grid0 :=
  Pipeline.Window.ofSpec (Memref.whole main_v0) S1x21x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x21x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S21x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S21x21 : Shape := ⟨2, ![21, 21]⟩
abbrev S8x512x512x21 : Shape := ⟨4, ![8, 512, 512, 21]⟩
abbrev S2097152x21 : Shape := ⟨2, ![2097152, 21]⟩
abbrev S_ : Shape := ⟨0, ![]⟩
abbrev S2097152 : Shape := ⟨1, ![2097152]⟩
abbrev S2097152x1 : Shape := ⟨2, ![2097152, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x21x512x512, .f32⟩
  | .hbm, ⟨2, _⟩ => ⟨S21x21, .f32⟩
  | .hbm, ⟨3, _⟩ => ⟨S8x512x512x21, .f32⟩
  | .hbm, ⟨4, _⟩ => ⟨S2097152x21, .f32⟩
  | .hbm, ⟨5, _⟩ => ⟨S8x512x512x21, .f32⟩
  | .hbm, ⟨6, _⟩ => ⟨S2097152x21, .f32⟩
  | .hbm, ⟨7, _⟩ => ⟨S_, .f32⟩
  | .hbm, ⟨8, _⟩ => ⟨S2097152, .f32⟩
  | .hbm, ⟨9, _⟩ => ⟨S2097152x1, .f32⟩
  | .hbm, ⟨10, _⟩ => ⟨S2097152x21, .f32⟩
  | .hbm, ⟨11, _⟩ => ⟨S2097152x21, .f32⟩
  | .hbm, ⟨12, _⟩ => ⟨S_, .f32⟩
  | .hbm, ⟨13, _⟩ => ⟨S2097152, .f32⟩
  | .hbm, ⟨14, _⟩ => ⟨S2097152x1, .f32⟩
  | .hbm, ⟨15, _⟩ => ⟨S2097152x21, .f32⟩
  | .hbm, ⟨16, _⟩ => ⟨S2097152x21, .f32⟩
  | .hbm, ⟨17, _⟩ => ⟨S21x21, .f32⟩
  | .hbm, ⟨18, _⟩ => ⟨S2097152x21, .f32⟩
  | .hbm, ⟨19, _⟩ => ⟨S2097152x21, .f32⟩
  | .hbm, ⟨20, _⟩ => ⟨S_, .f32⟩
  | .hbm, ⟨21, _⟩ => ⟨S2097152, .f32⟩
  | .hbm, ⟨22, _⟩ => ⟨S2097152x1, .f32⟩
  | .hbm, ⟨23, _⟩ => ⟨S2097152x21, .f32⟩
  | .hbm, ⟨24, _⟩ => ⟨S2097152x21, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  transposes_S8x21x512x512_S8x512x512x21_0_2_3_1 : S8x21x512x512.Transposes [0, 2, 3, 1] S8x512x512x21
  shapeCasts_S8x512x512x21_S2097152x21 : S8x512x512x21.ShapeCasts S2097152x21
  reducesTo_S2097152x21_S2097152_d1 : S2097152x21.ReducesTo [1] S2097152
  h_S_ : 0 < S_.numel
  bcast_S2097152_S2097152x1_0 : S2097152.BroadcastsInDim S2097152x1 (![0] : Fin 1 → Fin S2097152x1.rank)
  bcast_S2097152x1_S2097152x21_0_1 : S2097152x1.BroadcastsInDim S2097152x21 (![0, 1] : Fin 2 → Fin S2097152x21.rank)
  transposes_S21x21_S21x21_1_0 : S21x21.Transposes [1, 0] S21x21
  dot_S2097152x21_S21x21_S2097152x21_1_0_0_1_n_n_wf : DotDims.WF S2097152x21 S21x21 S2097152x21 [1] [0] [0] [1] [] []

variable [Facts₀]

def dot_S2097152x21_S21x21_S2097152x21_1_0_0_1_n_n : DotDims S2097152x21 S21x21 S2097152x21 where
  lhsContracting := [1]
  rhsContracting := [0]
  lhsNonContracting := [0]
  rhsNonContracting := [1]
  lhsBatch := []
  rhsBatch := []
  wf := dot_S2097152x21_S21x21_S2097152x21_1_0_0_1_n_n_wf

class Facts : Prop extends Facts₀ where

variable [Facts]
-- ==== Proof.Fusion.lean ====
/-
  Bayes fusion of two class-score maps, as one function of the three argument arrays.

  For a pixel `n` and a class `i`, with `P n` and `C n` the pixel's 21 prior and current scores and `M` the
  21 × 21 confusion matrix:
    share A n i     = A n i / Σ_k A n k                      (a pixel's scores as fractions of their total)
    weigh P C M n i = share P n i · Σ_j share C n j · M i j   (the prior's fraction times the predicted one)
    posterior       = weigh / Σ_k weigh                       (the products as fractions of their total).
  Everything is read on the extended reals with the quotient `Ideal.div`; no law beyond the commutativity of
  the product is used anywhere, so nothing here asks the scores to be finite.

  The arrays: scores are stored [8, 21, 512, 512] (image, class, row, column); pixel `n` of the flattened
  batch is image `n / 262144`, row `n / 512 % 512`, column `n % 512` (`pix`). The result is [2097152, 21].
-/
import Idealize.ShloMosaic.PureOps.Ideal
import Idealize.ShloMosaic.Lib.ValueIdx

noncomputable section

namespace Cert.Fusion

open Idealize.ShloMosaic Idealize.ShloMosaic.ValueIdx

variable {ι κ : Type}

/-- A pixel's score for class `i` as a fraction of the pixel's total over the 21 classes. -/
def share (A : ι → Fin 21 → EReal) (n : ι) (i : Fin 21) : EReal :=
  Ideal.div (A n i) (∑ k : Fin 21, A n k)

/-- The prior's fraction for class `i` times the fraction the confusion matrix predicts for it from the
    current scores, `Σ_j share C n j · M i j`. -/
def weigh (P C : ι → Fin 21 → EReal) (M : Fin 21 → Fin 21 → EReal) (n : ι) (i : Fin 21) : EReal :=
  share P n i * ∑ j : Fin 21, share C n j * M i j

/-- The fused distribution: the weighted products as fractions of their total. -/
def posterior (P C : ι → Fin 21 → EReal) (M : Fin 21 → Fin 21 → EReal) (n : ι) (i : Fin 21) : EReal :=
  Ideal.div (weigh P C M n i) (∑ k : Fin 21, weigh P C M n k)

/-- A pixel's fractions depend on that pixel's 21 scores only. -/
theorem share_congr {A : ι → Fin 21 → EReal} {A' : κ → Fin 21 → EReal} {n : ι} {n' : κ}
    (h : ∀ k, A n k = A' n' k) (i : Fin 21) : share A n i = share A' n' i := by
  unfold share
  rw [h i, Finset.sum_congr rfl fun k _ => h k]

theorem weigh_congr {P C : ι → Fin 21 → EReal} {P' C' : κ → Fin 21 → EReal} (M : Fin 21 → Fin 21 → EReal)
    {n : ι} {n' : κ} (hP : ∀ k, P n k = P' n' k) (hC : ∀ k, C n k = C' n' k) (i : Fin 21) :
    weigh P C M n i = weigh P' C' M n' i := by
  unfold weigh
  rw [share_congr hP i, Finset.sum_congr rfl fun j _ => by rw [share_congr hC j]]

/-- So the fused distribution at a pixel is the same function of that pixel's scores wherever the pixel
    sits: in a block of 8192 pixels or in the whole batch. -/
theorem posterior_congr {P C : ι → Fin 21 → EReal} {P' C' : κ → Fin 21 → EReal} {M M' : Fin 21 → Fin 21 → EReal}
    {n : ι} {n' : κ} {i i' : Fin 21} (hP : ∀ k, P n k = P' n' k) (hC : ∀ k, C n k = C' n' k)
    (hM : ∀ r s, M r s = M' r s) (hi : i = i') :
    posterior P C M n i = posterior P' C' M' n' i' := by
  subst hi
  obtain rfl : M = M' := funext fun r => funext fun s => hM r s
  unfold posterior
  rw [weigh_congr M hP hC i, Finset.sum_congr rfl fun k _ => weigh_congr M hP hC k]

/-- Pixel `n` of the flattened batch, class `k`, as an index of the [8, 21, 512, 512] score array. -/
def pix (n : Fin 2097152) (k : Fin 21) : (⟨4, ![8, 21, 512, 512]⟩ : Shape).Idx :=
  ix4 (⟨n.val / 262144, by have := n.isLt; omega⟩ : Fin 8) k
    (⟨n.val / 512 % 512, by omega⟩ : Fin 512) (⟨n.val % 512, by omega⟩ : Fin 512)

/-- The score array read pixel by pixel. -/
def rows (a : (⟨4, ![8, 21, 512, 512]⟩ : Shape).Idx → EReal) (n : Fin 2097152) (k : Fin 21) : EReal := a (pix n k)

/-- The confusion matrix read by its two coordinates. -/
def mat (a : (⟨2, ![21, 21]⟩ : Shape).Idx → EReal) (r s : Fin 21) : EReal := a (ix2 r s)

/-- THE RESULT ARRAY [2097152, 21] as one function of the three argument arrays: at (pixel, class) the fused
    distribution of that pixel's prior and current scores. -/
def fused (prior current : (⟨4, ![8, 21, 512, 512]⟩ : Shape).Idx → EReal) (cm : (⟨2, ![21, 21]⟩ : Shape).Idx → EReal) :
    (⟨2, ![2097152, 21]⟩ : Shape).Idx → EReal :=
  fun i => posterior (rows prior) (rows current) (mat cm) (i 0) (i 1)

theorem fused_apply (prior current : (⟨4, ![8, 21, 512, 512]⟩ : Shape).Idx → EReal) (cm : (⟨2, ![21, 21]⟩ : Shape).Idx → EReal)
    (n : Fin 2097152) (i : Fin 21) :
    fused prior current cm (ix2 n i) = posterior (rows prior) (rows current) (mat cm) n i := rfl

end Cert.Fusion

end
-- ==== Proof.Block.lean ====
/-
  The kernel body's value on one block of 8192 pixels, read at (pixel, class).

  The body loads a [1, 21, 8192] block of prior scores and one of current scores (class-major: entry (0, k, q) is
  class `k` of the block's pixel `q`) and the 21 × 21 confusion matrix, and stores an [8192, 21] block. Its
  arithmetic is four kinds of step:
    `flat`      the leading unit axis dropped: (k, q) reads (0, k, q);
    `colShare`  every column (a pixel's 21 entries) divided by the column's total — the total is a sum over the
                class axis, kept as a [1, 8192] row and broadcast back over the 21 classes;
    `mix`       the matrix product M · v into a zero accumulator: (i, q) reads Σ_j M(i, j) · v(j, q) (the operands'
                change of float format on the way in is the identity on the extended reals);
    a final transpose, (q, i) reads (i, q).
  The stored value is transpose (colShare (colShare (flat p) · mix M (colShare (flat c)))), which at (q, i) is
  `Fusion.posterior` of the block's rows: the one law used is the commutativity of the product, M(i, j) · s = s · M(i, j).
-/
import proofs.«161920_j79113297592736_2_alg».proof.Proof.Gen.KernelIdeal.Skeleton
import proofs.«161920_j79113297592736_2_alg».proof.Proof.Fusion
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The leading unit axis dropped -/

/-- A [1, 21, 8192] block viewed [21, 8192]. -/
def flat (x : Vec Ideal S1x21x8192 .f32) : FVec Ideal S21x8192 .f32 :=
  shapeCast S21x8192 x shapeCasts_S1x21x8192_S21x8192

/-- Both positions are `k · 8192 + q` in row-major order. -/
theorem flat_apply (x : Vec Ideal S1x21x8192 .f32) (k : Fin 21) (q : Fin 8192) :
    flat x (ix2 k q) = x (ix3 (0 : Fin 1) k q) := by
  unfold flat
  refine shapeCast_apply x shapeCasts_S1x21x8192_S21x8192 (ix2 k q) (ix3 (0 : Fin 1) k q) ?_
  rewrite [Shape.rowMajor_val_three, Shape.rowMajor_val_two]
  show ((0 : Nat) * 21 + k.val) * 8192 + q.val = k.val * 8192 + q.val
  omega

/-! ## A column divided by its total -/

/-- Every entry of a [21, 8192] block divided by the total of its column. -/
def colShare (v : FVec Ideal S21x8192 .f32) : FVec Ideal S21x8192 .f32 :=
  divf v (broadcastTo S21x8192
    (shapeCast S1x8192 (multiReduction (F := Ideal) .add [0] S8192 v 0x00000000#32 reduces_S21x8192_S8192 (.inl rfl) rfl)
      shapeCasts_S8192_S1x8192)
    broadcasts_S1x8192_S21x8192)

/-- The broadcast row at (i, q) is the row at (0, q), the row at (0, q) is the vector of totals at q, and the
    total at q is the sum over the class axis of the block's column q. -/
theorem colShare_apply (v : FVec Ideal S21x8192 .f32) (i : Fin 21) (q : Fin 8192) :
    colShare v (ix2 i q) = Ideal.div (v (ix2 i q)) (∑ k : Fin 21, v (ix2 k q)) := by
  unfold colShare
  show Ideal.div (v (ix2 i q)) _ = _
  refine congrArg (Ideal.div (v (ix2 i q))) ?_
  refine (broadcastTo_apply _ broadcasts_S1x8192_S21x8192 (ix2 i q) (ix2 (0 : Fin 1) q) (fun a => ?_)).trans ?_
  · match a with
    | ⟨0, _⟩ => show (0 : Nat) = if (1 : Nat) = 1 then 0 else i.val; rw [if_pos rfl]
    | ⟨1, _⟩ => show q.val = if (8192 : Nat) = 1 then 0 else q.val; rw [if_neg (by decide)]
  refine (shapeCast_apply _ shapeCasts_S8192_S1x8192 (ix2 (0 : Fin 1) q) (ix1 q) ?_).trans ?_
  · rewrite [Shape.rowMajor_val_one, Shape.rowMajor_val_two]
    show q.val = (0 : Nat) * 8192 + q.val
    omega
  refine (Ideal.multiReduction_add_single v 0x00000000#32 reduces_S21x8192_S8192 (.inl rfl) rfl (ix1 q)).trans ?_
  exact Finset.sum_congr rfl fun k _ => congrArg v (funext fun a => Fin.ext (by
    match a with
    | ⟨0, _⟩ => rfl
    | ⟨1, _⟩ => rfl))

/-! ## The matrix product -/

/-- The 21 × 21 matrix times a [21, 8192] block, accumulated into zero. -/
def mix (M : Vec Ideal S21x21 .f32) (v : FVec Ideal S21x8192 .f32) : FVec Ideal S21x8192 .f32 :=
  matmul dot_S21x21_S21x8192_S21x8192_1_0_0_1_n_n none (truncf .bf16 M bitsLt_bf16_f32) (truncf .bf16 v bitsLt_bf16_f32)
    (constant (F := Ideal) S21x8192 .f32 0x00000000#32)

/-- The left operand is read at the result's row, -/
theorem lhs_row (j : S21x8192.Idx) (k : dot_S21x21_S21x8192_S21x8192_1_0_0_1_n_n.contr.Idx) :
    (dot_S21x21_S21x8192_S21x8192_1_0_0_1_n_n.lhsIdx j k 0).val = (j 0).val := by
  unfold DotDims.lhsIdx
  rw [dif_neg (show ¬(0 : Fin S21x21.rank) ∈ dot_S21x21_S21x8192_S21x8192_1_0_0_1_n_n.lhsBatch by decide),
    dif_pos (show (0 : Fin S21x21.rank) ∈ dot_S21x21_S21x8192_S21x8192_1_0_0_1_n_n.lhsNonContracting by decide)]
  rfl
/-- and at the contraction index on its second axis; -/
theorem lhs_col (j : S21x8192.Idx) (k : dot_S21x21_S21x8192_S21x8192_1_0_0_1_n_n.contr.Idx) :
    (dot_S21x21_S21x8192_S21x8192_1_0_0_1_n_n.lhsIdx j k 1).val = (k ⟨0, by decide⟩).val :=
  dot_S21x21_S21x8192_S21x8192_1_0_0_1_n_n.lhsIdx_val_of_single rfl j k
/-- the right operand at the contraction index on its first axis -/
theorem rhs_row (j : S21x8192.Idx) (k : dot_S21x21_S21x8192_S21x8192_1_0_0_1_n_n.contr.Idx) :
    (dot_S21x21_S21x8192_S21x8192_1_0_0_1_n_n.rhsIdx j k 0).val = (k ⟨0, by decide⟩).val :=
  dot_S21x21_S21x8192_S21x8192_1_0_0_1_n_n.rhsIdx_val_of_single rfl j k
/-- and at the result's column. -/
theorem rhs_col (j : S21x8192.Idx) (k : dot_S21x21_S21x8192_S21x8192_1_0_0_1_n_n.contr.Idx) :
    (dot_S21x21_S21x8192_S21x8192_1_0_0_1_n_n.rhsIdx j k 1).val = (j 1).val := by
  unfold DotDims.rhsIdx
  rw [dif_neg (show ¬(1 : Fin S21x8192.rank) ∈ dot_S21x21_S21x8192_S21x8192_1_0_0_1_n_n.rhsBatch by decide),
    dif_pos (show (1 : Fin S21x8192.rank) ∈ dot_S21x21_S21x8192_S21x8192_1_0_0_1_n_n.rhsNonContracting by decide)]
  rfl

/-- So the product at (i, q) is Σ_j M(i, j) · v(j, q): the zero accumulator adds nothing, the one contracted axis
    is summed by its 21 coordinates, and the operands' change of format is the identity. -/
theorem mix_apply (M : Vec Ideal S21x21 .f32) (v : FVec Ideal S21x8192 .f32) (i : Fin 21) (q : Fin 8192) :
    mix M v (ix2 i q) = ∑ j : Fin 21, M (ix2 i j) * v (ix2 j q) := by
  unfold mix
  simp only [matmul]
  rw [Ideal.matmul_constant_zero_apply,
    ← Equiv.sum_comp (contrEquiv1 dot_S21x21_S21x8192_S21x8192_1_0_0_1_n_n 21 rfl rfl).symm]
  refine Finset.sum_congr rfl fun k _ => ?_
  have hk := contrEquiv1_symm_val dot_S21x21_S21x8192_S21x8192_1_0_0_1_n_n 21 rfl rfl k
  have el : dot_S21x21_S21x8192_S21x8192_1_0_0_1_n_n.lhsIdx (ix2 i q)
      ((contrEquiv1 dot_S21x21_S21x8192_S21x8192_1_0_0_1_n_n 21 rfl rfl).symm k) = ix2 i k :=
    funext fun a => Fin.ext (by
      match a with
      | ⟨0, _⟩ => exact lhs_row _ _
      | ⟨1, _⟩ => exact (lhs_col _ _).trans hk)
  have er : dot_S21x21_S21x8192_S21x8192_1_0_0_1_n_n.rhsIdx (ix2 i q)
      ((contrEquiv1 dot_S21x21_S21x8192_S21x8192_1_0_0_1_n_n 21 rfl rfl).symm k) = ix2 k q :=
    funext fun a => Fin.ext (by
      match a with
      | ⟨0, _⟩ => exact (rhs_row _ _).trans hk
      | ⟨1, _⟩ => exact rhs_col _ _)
  rw [el, er]
  rfl

/-! ## The stored value -/

/-- The body's one stored value is these steps composed (the same operations in the same order). -/
theorem pay_eq (x0 x1 : Vec Ideal S1x21x8192 .f32) (x2 : Vec Ideal S21x21 .f32) :
    k0_pay1 (F := Ideal) x0 x1 x2
      = transpose S8192x21 [1, 0] (colShare (mulf (colShare (flat x0)) (mix x2 (colShare (flat x1)))))
          transposes_S21x8192_p1_0_S8192x21 := rfl

/-- The block's rows: pixel `q` of the block, class `k`. -/
def brow (x : Vec Ideal S1x21x8192 .f32) (q : Fin 8192) (k : Fin 21) : EReal := x (ix3 (0 : Fin 1) k q)

/-- The prior's fraction times the predicted fraction, at (class, pixel) of the block. -/
theorem weighed_apply (x0 x1 : Vec Ideal S1x21x8192 .f32) (x2 : Vec Ideal S21x21 .f32) (i : Fin 21) (q : Fin 8192) :
    mulf (colShare (flat x0)) (mix x2 (colShare (flat x1))) (ix2 i q)
      = Fusion.weigh (brow x0) (brow x1) (Fusion.mat x2) q i := by
  rw [mulf_apply, colShare_apply, mix_apply]
  simp only [flat_apply, colShare_apply]
  unfold Fusion.weigh Fusion.share Fusion.mat brow
  exact congrArg (_ * ·) (Finset.sum_congr rfl fun j _ => mul_comm _ _)

/-- THE STORED BLOCK at (pixel, class) is the fused distribution of the block's rows. -/
theorem pay_apply (x0 x1 : Vec Ideal S1x21x8192 .f32) (x2 : Vec Ideal S21x21 .f32) (q : Fin 8192) (i : Fin 21) :
    k0_pay1 (F := Ideal) x0 x1 x2 (ix2 q i) = Fusion.posterior (brow x0) (brow x1) (Fusion.mat x2) q i := by
  rw [pay_eq]
  refine (transpose_apply [1, 0] _ transposes_S21x8192_p1_0_S8192x21 (ix2 q i) (ix2 i q) (fun b => ?_)).trans ?_
  · match b with
    | ⟨0, _⟩ => rfl
    | ⟨1, _⟩ => rfl
  rw [colShare_apply]
  simp only [weighed_apply]
  rfl

/-- The same at any index of the block, by its two coordinates. -/
theorem pay_at (x0 x1 : Vec Ideal S1x21x8192 .f32) (x2 : Vec Ideal S21x21 .f32) (y : S8192x21.Idx) :
    k0_pay1 (F := Ideal) x0 x1 x2 y = Fusion.posterior (brow x0) (brow x1) (Fusion.mat x2) (y 0) (y 1) := by
  obtain ⟨q, i, rfl⟩ : ∃ (q : Fin 8192) (i : Fin 21), y = ix2 q i := ⟨y 0, y 1, eq_ix2 y⟩
  exact pay_apply x0 x1 x2 q i

end Cert.KernelIdeal.Block

end
-- ==== Proof.Whole.lean ====
/-
  From blocks to the whole array: after the kernel's run the result array is `Fusion.fused` of the arguments.

  The grid has 8 × 32 points; point `t` (image `t / 32`, strip `t % 32`) reads block (t / 32, 0, t % 32) of each
  score array viewed [8, 21, 262144] — the image's 21 classes at the strip's 8192 flattened positions — and the
  whole confusion matrix, and writes back rows `8192·t … 8192·t + 8191` of the result. The score arrays reach the
  kernel through a reshape [8, 21, 512, 512] → [8, 21, 262144] that @main makes first: flattened position `s` of an
  image is row `s / 512`, column `s % 512`. So pixel `q` of point `t`'s block is pixel `n = 8192·t + q` of the
  flattened batch (image `n / 262144`, position `n % 262144`), its 21 scores are the batch's row `n`, and what the
  point writes back at (q, i) — the body's stored block, `Block.pay_at` — is `fused` at (n, i). The 256 blocks of
  8192 rows tile the 2097152 rows, row `r` lying in block `r / 8192`.
-/
import proofs.«161920_j79113297592736_2_alg».proof.Proof.Gen.KernelIdeal.Value
import proofs.«161920_j79113297592736_2_alg».proof.Proof.Block
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Fusion
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The arrays as the kernel finds them -/

/-- The prior scores reach the kernel reshaped to [8, 21, 262144]. -/
theorem entry_prior (c : Dev nD) :
    (V m c main_v0 : S8x21x262144.Idx → EReal)
      = shapeCast S8x21x262144 (m ((c : Thread nD τ).loc main_arg0) : S8x21x512x512.Idx → EReal)
          shapeCasts_S8x21x512x512_S8x21x262144 := by
  dsimp only [V, hostOps0]
  after_results
  rfl

/-- So do the current scores. -/
theorem entry_current (c : Dev nD) :
    (V m c main_v1 : S8x21x262144.Idx → EReal)
      = shapeCast S8x21x262144 (m ((c : Thread nD τ).loc main_arg1) : S8x21x512x512.Idx → EReal)
          shapeCasts_S8x21x512x512_S8x21x262144 := by
  dsimp only [V, hostOps0]
  after_results
  rfl

/-- The reshaped array at (image, class, position) of pixel `n` is the score array at `pix n`: both sit at
    row-major position `(image · 21 + class) · 262144 + position`, and position `s` is row `s / 512`, column `s % 512`. -/
theorem reshaped_at (a : S8x21x512x512.Idx → EReal) (j : S8x21x262144.Idx) (n : Fin 2097152) (k : Fin 21)
    (h0 : (j 0).val = n.val / 262144) (h1 : (j 1).val = k.val) (h2 : (j 2).val = n.val % 262144) :
    shapeCast S8x21x262144 a shapeCasts_S8x21x512x512_S8x21x262144 j = a (pix n k) := by
  refine shapeCast_apply a shapeCasts_S8x21x512x512_S8x21x262144 j (pix n k) ?_
  rewrite [Shape.rowMajor_val_four, Shape.rowMajor_val_three]
  have hn : n.val < 2097152 := n.isLt
  show ((n.val / 262144 * 21 + k.val) * 512 + n.val / 512 % 512) * 512 + n.val % 512
    = ((j 0).val * 21 + (j 1).val) * 262144 + (j 2).val
  rw [h0, h1, h2]
  omega

/-! ## The index maps, decided over the 256 grid points -/

/-- Point `t` reads block (t / 32, 0, t % 32) of each score array and block (0, 0) of the matrix, and writes block
    (t, 0) of the result. -/
theorem idx_facts : ∀ t : Fin cfg0.N,
    win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = t.val % 32
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem points (t : Fin cfg0.N) : t.val < 256 := lt_of_lt_of_eq t.isLt N_0

/-! ## The input blocks as rows of the argument arrays -/

/-- Point `t`'s block of prior scores at (0, class k, pixel q) is the prior array at pixel `8192·t + q`, class `k`. -/
theorem prior_block (c : Dev nD) (t : Fin cfg0.N) (y : S1x21x8192.Idx) (n : Fin 2097152) (k : Fin 21)
    (hk : (y 1).val = k.val) (hn : n.val = t.val * 8192 + (y 2).val) :
    iblk m c 0 t y = m ((c : Thread nD τ).loc main_arg0) (pix n k) := by
  show V m c main_v0 (((cfg0.win 0).blk t).view.emb y) = _
  rw [entry_prior]
  obtain ⟨e0, e1, e2, -⟩ := idx_facts t
  have ht := points t
  have y0 : (y 0).val < 1 := (y 0).isLt
  have y2 : (y 2).val < 8192 := (y 2).isLt
  refine reshaped_at _ _ n k ?_ ?_ ?_
  · show win0_0.index t (0 : Fin 3) * 1 + 1 * (y 0).val = n.val / 262144
    rw [e0]; omega
  · show win0_0.index t (1 : Fin 3) * 21 + 1 * (y 1).val = k.val
    rw [e1]; omega
  · show win0_0.index t (2 : Fin 3) * 8192 + 1 * (y 2).val = n.val % 262144
    rw [e2]; omega

/-- The same of the current scores. -/
theorem current_block (c : Dev nD) (t : Fin cfg0.N) (y : S1x21x8192.Idx) (n : Fin 2097152) (k : Fin 21)
    (hk : (y 1).val = k.val) (hn : n.val = t.val * 8192 + (y 2).val) :
    iblk m c 1 t y = m ((c : Thread nD τ).loc main_arg1) (pix n k) := by
  show V m c main_v1 (((cfg0.win 1).blk t).view.emb y) = _
  rw [entry_current]
  obtain ⟨-, -, -, e0, e1, e2, -⟩ := idx_facts t
  have ht := points t
  have y0 : (y 0).val < 1 := (y 0).isLt
  have y2 : (y 2).val < 8192 := (y 2).isLt
  refine reshaped_at _ _ n k ?_ ?_ ?_
  · show win0_1.index t (0 : Fin 3) * 1 + 1 * (y 0).val = n.val / 262144
    rw [e0]; omega
  · show win0_1.index t (1 : Fin 3) * 21 + 1 * (y 1).val = k.val
    rw [e1]; omega
  · show win0_1.index t (2 : Fin 3) * 8192 + 1 * (y 2).val = n.val % 262144
    rw [e2]; omega

/-- Every point's block of the confusion matrix is the matrix. -/
theorem matrix_block (c : Dev nD) (t : Fin cfg0.N) (r s : Fin 21) :
    iblk m c 2 t (ix2 r s) = m ((c : Thread nD τ).loc main_arg2) (ix2 r s) := by
  show V m c main_arg2 (((cfg0.win 2).blk t).view.emb (ix2 r s)) = _
  rw [V_main_arg2]
  obtain ⟨-, -, -, -, -, -, e0, e1, -⟩ := idx_facts t
  have e : ((cfg0.win 2).blk t).view.emb (ix2 r s) = (ix2 r s : S21x21.Idx) := funext fun a => Fin.ext (by
    match a with
    | ⟨0, _⟩ => show win0_2.index t (0 : Fin 2) * 21 + 1 * r.val = r.val; rw [e0]; omega
    | ⟨1, _⟩ => show win0_2.index t (1 : Fin 2) * 21 + 1 * s.val = s.val; rw [e1]; omega)
  rw [e]

/-! ## What a point writes back -/

/-- WHAT POINT `t` WRITES BACK is block `t` of `fused` of the argument arrays: the body's one store covers the
    staging buffer, its value at (q, i) is the fused distribution of the block's rows, and those are rows
    `8192·t + q` of the arguments. -/
theorem flushed_eq (c : Dev nD) (t : Fin cfg0.N) :
    (dats m 0 c).flushed 3 t = ((cfg0.win 3).blk t).view.read (Elt Ideal)
      (fused (m ((c : Thread nD τ).loc main_arg0)) (m ((c : Thread nD τ).loc main_arg1)) (m ((c : Thread nD τ).loc main_arg2))) := by
  rw [flushed3]
  unfold out0_3
  rw [View.canon_unit_zero zeros2]
  simp only [View.ld_unit_zero (S := S1x21x8192) zeros3, View.ld_unit_zero (S := S21x21) zeros2]
  funext y
  show k0_pay1 (iblk m c 0 t) (iblk m c 1 t) (iblk m c 2 t) y
    = fused (m ((c : Thread nD τ).loc main_arg0)) (m ((c : Thread nD τ).loc main_arg1)) (m ((c : Thread nD τ).loc main_arg2))
        (((cfg0.win 3).blk t).view.emb y)
  refine (Block.pay_at _ _ _ y).trans ?_
  obtain ⟨-, -, -, -, -, -, -, -, e0, e1⟩ := idx_facts t
  have ht := points t
  have hy0 : (y 0).val < 8192 := (y 0).isLt
  have hy1 : (y 1).val < 21 := (y 1).isLt
  have r0 : ((((cfg0.win 3).blk t).view.emb y) 0).val = t.val * 8192 + (y 0).val := by
    show win0_3.index t (0 : Fin 2) * 8192 + 1 * (y 0).val = _
    rw [e0]; omega
  have r1 : ((((cfg0.win 3).blk t).view.emb y) 1).val = (y 1).val := by
    show win0_3.index t (1 : Fin 2) * 21 + 1 * (y 1).val = _
    rw [e1]; omega
  show posterior _ _ _ (y 0) (y 1)
    = posterior (rows (m ((c : Thread nD τ).loc main_arg0))) (rows (m ((c : Thread nD τ).loc main_arg1)))
        (mat (m ((c : Thread nD τ).loc main_arg2))) ((((cfg0.win 3).blk t).view.emb y) 0) ((((cfg0.win 3).blk t).view.emb y) 1)
  refine posterior_congr (fun k => ?_) (fun k => ?_) (fun r s => ?_) (Fin.ext r1.symm)
  · exact prior_block m c t (ix3 (0 : Fin 1) k (y 0)) _ k rfl r0
  · exact current_block m c t (ix3 (0 : Fin 1) k (y 0)) _ k rfl r0
  · exact matrix_block m c t r s

/-! ## The blocks tile the result -/

/-- An index of the result is in point `t`'s block iff each coordinate is in the block's range on its axis. -/
theorem mem_blk (t : Fin cfg0.N) (i : S2097152x21.Idx) :
    i ∈ ((cfg0.win 3).blk t).view.set ↔ ∀ a : Fin 2, win0_3.index t a * S8192x21.size a ≤ (i a).val
      ∧ (i a).val < win0_3.index t a * S8192x21.size a + S8192x21.size a := by
  show i ∈ ((View.whole main_v2).slice (win0_3.rect t)).set ↔ _
  rw [View.set_slice_whole, Rect.mem_set_unit]
  exact Iff.rfl

/-- Row `r` of the result lies in the block of point `r / 8192`, which writes it back. -/
theorem cover (i : S2097152x21.Idx) :
    ∃ t : Fin cfg0.N, (cfg0.win 3).flush t = true ∧ i ∈ ((cfg0.win 3).blk t).view.set := by
  have h0 : (i 0).val < 2097152 := (i 0).isLt
  have h1 : (i 1).val < 21 := (i 1).isLt
  obtain ⟨t, ht⟩ : ∃ t : Fin cfg0.N, t.val = (i 0).val / 8192 :=
    ⟨⟨(i 0).val / 8192, by rw [show cfg0.N = 256 from N_0]; omega⟩, rfl⟩
  obtain ⟨-, -, -, -, -, -, -, -, e0, e1⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    rw [e0]; omega
  | ⟨1, _⟩ =>
    show win0_3.index t (1 : Fin 2) * 21 ≤ (i 1).val ∧ (i 1).val < win0_3.index t (1 : Fin 2) * 21 + 21
    rw [e1]; omega

/-! ## The array and the run -/

/-- THE RESULT ARRAY after the run is `fused` of the argument arrays. -/
theorem final (c : Dev nD) : (dats m 0 c).arrAt 3 cfg0.N
    = fused (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run re-posted: the result array at `fused` of the arguments, the arguments unchanged. -/
theorem run : θ_run defs (onTc (τ := τ) (main (F := Ideal))) ⟨m, fun _ => 0, ρ⟩ fun r => ∀ c : Dev nD,
      r.2.mem ((c : Thread nD τ).loc main_v2)
        = fused (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefFused.lean ====
/-
  The reference, stage by stage, is `Fusion.fused` of its three arguments.

  The reference transposes each score array to [8, 512, 512, 21] and flattens it to [2097152, 21], so that
  row `n` holds pixel `n`'s 21 scores (`flat_pix`: position `n · 21 + k` of the flattened array is image
  `n / 262144`, class `k`, row `n / 512 % 512`, column `n % 512`). It divides each row by its total, multiplies the
  current fractions by the transposed confusion matrix — at (n, i) that is Σ_j share(n, j) · M(i, j) —, multiplies by
  the prior fractions and divides each row by its total again. Each stage read at (pixel, class) is the
  corresponding function of `Fusion`, with no algebra at all: the sums start from a zero that adds nothing.
  The current scores go through the very operations the prior scores go through, so their stages are the
  prior's stages applied to another array (`current_stage`), and are read once.
-/
import proofs.«161920_j79113297592736_2_alg».proof.Proof.Gen.ReferenceIdeal.Read
import proofs.«161920_j79113297592736_2_alg».proof.Proof.Fusion

noncomputable section

namespace Cert.ReferenceIdeal.Fused

open Cert.ReferenceIdeal Cert.ReferenceIdeal.Read Idealize.ShloMosaic Idealize.ShloMosaic.ValueIdx Cert.Fusion

/-- Position `n · 21 + k` of the flattened [8, 512, 512, 21] array, carried back through the transpose, is
    image `n / 262144`, class `k`, row `n / 512 % 512`, column `n % 512`. -/
theorem flat_pix (n : Fin 2097152) (k : Fin 21) : idx_main_v0 (idx_main_v1 (ix2 n k)) = pix n k := by
  funext a
  apply Fin.ext
  have hn : n.val < 2097152 := n.isLt
  have hk : k.val < 21 := k.isLt
  match a with
  | ⟨0, _⟩ => show (n.val * 21 + k.val) / 5505024 = n.val / 262144; omega
  | ⟨1, _⟩ => show (n.val * 21 + k.val) % 21 = k.val; omega
  | ⟨2, _⟩ => show (n.val * 21 + k.val) / 10752 % 512 = n.val / 512 % 512; omega
  | ⟨3, _⟩ => show (n.val * 21 + k.val) / 21 % 512 = n.val % 512; omega

/-- The transposed and flattened scores at (pixel, class) are the score array at `pix`. -/
theorem v1_at (x : (⟨S8x21x512x512, .f32⟩ : BufTy).Contents (Elt Ideal)) (n : Fin 2097152) (k : Fin 21) :
    val_main_v1 (F := Ideal) x (ix2 n k) = rows x n k := by
  rw [val_main_v1_apply, val_main_v0_apply, flat_pix]
  rfl

/-- A pixel's total: the zero the sum starts from adds nothing. -/
theorem v4_at (x : (⟨S8x21x512x512, .f32⟩ : BufTy).Contents (Elt Ideal)) (n : Fin 2097152) :
    val_main_v4 (F := Ideal) x (ix1 n) = ∑ k : Fin 21, rows x n k := by
  rw [val_main_v4_apply]
  show Ideal.ofBits .f32 0x00000000#32 + _ = _
  rw [Ideal.ofBits_zero_f32, zero_add]
  refine Finset.sum_congr rfl fun k _ => ?_
  rw [show idx_main_v4 (ix1 n) k = ix2 n k from funext fun a => Fin.ext (by
    match a with
    | ⟨0, _⟩ => rfl
    | ⟨1, _⟩ => rfl)]
  exact v1_at x n k

/-- The total kept as a column and broadcast over the 21 classes. -/
theorem v6_at (x : (⟨S8x21x512x512, .f32⟩ : BufTy).Contents (Elt Ideal)) (n : Fin 2097152) (c : Fin 21) :
    val_main_v6 (F := Ideal) x (ix2 n c) = ∑ k : Fin 21, rows x n k := by
  rw [val_main_v6_apply, val_main_v5_apply,
    show idx_main_v5 (idx_main_v6 (ix2 n c)) = ix1 n from funext fun a => Fin.ext (by
      match a with
      | ⟨0, _⟩ => rfl)]
  exact v4_at x n

/-- The scores as fractions of each pixel's total. -/
theorem v7_at (x : (⟨S8x21x512x512, .f32⟩ : BufTy).Contents (Elt Ideal)) (n : Fin 2097152) (c : Fin 21) :
    val_main_v7 (F := Ideal) x (ix2 n c) = share (rows x) n c := by
  rw [val_main_v7_apply, Ideal.hostDivf_def, v1_at, v6_at]
  rfl

/-- The current scores' fractions are the same operations applied to the other array. -/
theorem current_stage (x : (⟨S8x21x512x512, .f32⟩ : BufTy).Contents (Elt Ideal)) :
    val_main_v11 (F := Ideal) x = val_main_v7 (F := Ideal) x := rfl

theorem v11_at (x : (⟨S8x21x512x512, .f32⟩ : BufTy).Contents (Elt Ideal)) (n : Fin 2097152) (c : Fin 21) :
    val_main_v11 (F := Ideal) x (ix2 n c) = share (rows x) n c := by
  rw [current_stage]
  exact v7_at x n c

/-- The current fractions times the transposed confusion matrix: at (n, i), Σ_j share(n, j) · M(i, j). -/
theorem v13_at (x1 : (⟨S8x21x512x512, .f32⟩ : BufTy).Contents (Elt Ideal)) (x2 : (⟨S21x21, .f32⟩ : BufTy).Contents (Elt Ideal))
    (n : Fin 2097152) (c : Fin 21) :
    val_main_v13 (F := Ideal) x1 x2 (ix2 n c) = ∑ j : Fin 21, share (rows x1) n j * mat x2 c j := by
  rw [val_main_v13_apply]
  refine Finset.sum_congr rfl fun j _ => ?_
  rw [show lidx_main_v13 (ix2 n c) j = ix2 n j from funext fun a => Fin.ext (by
      match a with
      | ⟨0, _⟩ => rfl
      | ⟨1, _⟩ => rfl),
    val_main_v12_apply,
    show idx_main_v12 (ridx_main_v13 (ix2 n c) j) = ix2 c j from funext fun a => Fin.ext (by
      match a with
      | ⟨0, _⟩ => rfl
      | ⟨1, _⟩ => rfl),
    v11_at]
  rfl

/-- The prior fractions times that. -/
theorem v14_at (x0 x1 : (⟨S8x21x512x512, .f32⟩ : BufTy).Contents (Elt Ideal)) (x2 : (⟨S21x21, .f32⟩ : BufTy).Contents (Elt Ideal))
    (n : Fin 2097152) (c : Fin 21) :
    val_main_v14 (F := Ideal) x0 x1 x2 (ix2 n c) = weigh (rows x0) (rows x1) (mat x2) n c := by
  rw [val_main_v14_apply, Ideal.mulf_def, v7_at, v13_at]
  rfl

/-- A pixel's total of the products, broadcast over the classes. -/
theorem v17_at (x0 x1 : (⟨S8x21x512x512, .f32⟩ : BufTy).Contents (Elt Ideal)) (x2 : (⟨S21x21, .f32⟩ : BufTy).Contents (Elt Ideal))
    (n : Fin 2097152) (c : Fin 21) :
    val_main_v17 (F := Ideal) x0 x1 x2 (ix2 n c) = ∑ k : Fin 21, weigh (rows x0) (rows x1) (mat x2) n k := by
  rw [val_main_v17_apply, val_main_v16_apply,
    show idx_main_v16 (idx_main_v17 (ix2 n c)) = ix1 n from funext fun a => Fin.ext (by
      match a with
      | ⟨0, _⟩ => rfl),
    val_main_v15_apply]
  show Ideal.ofBits .f32 0x00000000#32 + _ = _
  rw [Ideal.ofBits_zero_f32, zero_add]
  refine Finset.sum_congr rfl fun k _ => ?_
  rw [show idx_main_v15 (ix1 n) k = ix2 n k from funext fun a => Fin.ext (by
    match a with
    | ⟨0, _⟩ => rfl
    | ⟨1, _⟩ => rfl)]
  exact v14_at x0 x1 x2 n k

/-- THE REFERENCE'S RESULT is the fused distribution of its arguments, pixel by pixel. -/
theorem result_eq (x0 x1 : (⟨S8x21x512x512, .f32⟩ : BufTy).Contents (Elt Ideal)) (x2 : (⟨S21x21, .f32⟩ : BufTy).Contents (Elt Ideal)) :
    val_main_v18 (F := Ideal) x0 x1 x2 = fused x0 x1 x2 := by
  funext i
  obtain ⟨n, c, rfl⟩ : ∃ (n : Fin 2097152) (c : Fin 21), i = ix2 n c := ⟨i 0, i 1, eq_ix2 i⟩
  rw [val_main_v18_apply, Ideal.hostDivf_def, v14_at, v17_at, fused_apply]
  rfl

end Cert.ReferenceIdeal.Fused

end
-- ==== Proof.lean ====
/-
  Bayes fusion of two segmentation score maps: the tiled kernel and the reference compute one function.

  Inputs: prior and current scores [8, 21, 512, 512] (image, class, row, column) and a 21 × 21 confusion matrix M.
  For every pixel the result holds, over the 21 classes i,
      post(i) / Σ_k post(k),   post(i) = (prior(i) / Σ_k prior(k)) · Σ_j (current(j) / Σ_k current(k)) · M(i, j),
  as an array [2097152, 21] whose row n is the pixel at image n / 262144, row n / 512 % 512, column n % 512
  (`Fusion.fused`, Proof/Fusion.lean).

  The reference transposes the scores class-last, flattens them to [2097152, 21] and works row by row
  (Proof/RefFused.lean: its stages read at (pixel, class)). The kernel keeps the class-major layout, views each
  image's 512 × 512 positions as one axis of 262144, and at each of 8 × 32 grid points takes the 21 classes of 8192
  consecutive positions, normalises down the class axis, multiplies by M on the left, and stores the transposed
  [8192, 21] block as rows 8192·t … 8192·t + 8191 of the result (Proof/Block.lean: the stored block at (pixel,
  class); Proof/Whole.lean: the 256 blocks tile the result, and a block's pixel q is pixel 8192·t + q of the batch).
  On the extended reals the two differ only in the order of the factors of M(i, j) · share(j), so the one law used
  is the commutativity of the product: nothing needs the inputs to be finite, and the precondition is never opened.

  The three frames are the generated ones (the reference's is its generated run with the result dropped); the
  kernel's idealization rewrote no operation, so there is nothing to preserve.
-/
import proofs.«161920_j79113297592736_2_alg».proof.Defs
import proofs.«161920_j79113297592736_2_alg».proof.Proof.Gen.Kernel
import proofs.«161920_j79113297592736_2_alg».proof.Proof.Gen.Kernel.Frame
import proofs.«161920_j79113297592736_2_alg».proof.Proof.Gen.KernelIdeal
import proofs.«161920_j79113297592736_2_alg».proof.Proof.Gen.KernelIdeal.Frame
import proofs.«161920_j79113297592736_2_alg».proof.Proof.Gen.KernelIdeal.Value
import proofs.«161920_j79113297592736_2_alg».proof.Proof.Gen.ReferenceIdeal
import proofs.«161920_j79113297592736_2_alg».proof.Proof.Gen.ReferenceIdeal.Run
import proofs.«161920_j79113297592736_2_alg».proof.Proof.Gen.ReferenceIdeal.Read
import proofs.«161920_j79113297592736_2_alg».proof.Proof.Gen.Pre_finite_inputs
import proofs.«161920_j79113297592736_2_alg».proof.Proof.Whole
import proofs.«161920_j79113297592736_2_alg».proof.Proof.RefFused

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at `Fusion.fused` of the argument arrays: the kernel's by its blocks
    (`Whole.run`), the reference's by its stages (`Fused.result_eq`), from arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Fused.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
